-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel

variable [Facts]

def fn {F : FTy → Type} [FloatOps F] (main_arg0 : FVec F S32x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  main_v3
-- ==== Kernel.lean ====
abbrev S32x256x64x64 : Shape := ⟨4, ![32, 256, 64, 64]⟩
abbrev S32x64x64x256 : Shape := ⟨4, ![32, 64, 64, 256]⟩
abbrev S32x64x64x512 : Shape := ⟨4, ![32, 64, 64, 512]⟩
abbrev S2x64x64x256 : Shape := ⟨4, ![2, 64, 64, 256]⟩
abbrev S2x64x64x512 : Shape := ⟨4, ![2, 64, 64, 512]⟩
abbrev S1x64x64x256 : Shape := ⟨4, ![1, 64, 64, 256]⟩
abbrev S64x64x256 : Shape := ⟨3, ![64, 64, 256]⟩
abbrev S4096x256 : Shape := ⟨2, ![4096, 256]⟩
abbrev S256 : Shape := ⟨1, ![256]⟩
abbrev S1x256 : Shape := ⟨2, ![1, 256]⟩
abbrev S1 : Shape := ⟨1, ![1]⟩
abbrev S1x1 : Shape := ⟨2, ![1, 1]⟩
abbrev S32x512x64x64 : Shape := ⟨4, ![32, 512, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x64x64x256, .f32⟩
  | .hbm, ⟨2, _⟩ => ⟨S32x64x64x512, .f32⟩
  | .hbm, ⟨3, _⟩ => ⟨S32x512x64x64, .f32⟩
  | .local _ .vmem, ⟨0, _⟩ => ⟨S2x64x64x256, .f32⟩
  | .local _ .vmem, ⟨1, _⟩ => ⟨S2x64x64x256, .f32⟩
  | .local _ .vmem, ⟨2, _⟩ => ⟨S2x64x64x512, .f32⟩
  | .local _ .vmem, ⟨3, _⟩ => ⟨S2x64x64x512, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S32x256x64x64_S32x64x64x256_0_2_3_1 : S32x256x64x64.Transposes [0, 2, 3, 1] S32x64x64x256
  inb_S2x64x64x256_S1x64x64x256_0_0_0_0 : ∀ a, (![0, 0, 0, 0] : Fin 4 → Nat) a + S1x64x64x256.size a ≤ S2x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  reduces_S4096x256_S256 : S4096x256.Reduces [0] S256
  shapeCasts_S256_S1x256 : S256.ShapeCasts S1x256
  reduces_S1x256_S1 : S1x256.Reduces [1] S1
  shapeCasts_S1_S1x1 : S1.ShapeCasts S1x1
  broadcasts_S1x1_S1x256 : S1x1.Broadcasts S1x256
  broadcasts_S1x256_S4096x256 : S1x256.Broadcasts S4096x256
  shapeCasts_S4096x256_S64x64x256 : S4096x256.ShapeCasts S64x64x256
  inb_S2x64x64x512_S1x64x64x256_0_0_0_0 : ∀ a, (![0, 0, 0, 0] : Fin 4 → Nat) a + S1x64x64x256.size a ≤ S2x64x64x512.size a
  shapeCasts_S64x64x256_S1x64x64x256 : S64x64x256.ShapeCasts S1x64x64x256
  shapeCasts_S1x256_S1x256 : S1x256.ShapeCasts S1x256
  inb_S2x64x64x512_S1x64x64x256_0_0_0_256 : ∀ a, (![0, 0, 0, 256] : Fin 4 → Nat) a + S1x64x64x256.size a ≤ S2x64x64x512.size a
  inb_S2x64x64x256_S1x64x64x256_1_0_0_0 : ∀ a, (![1, 0, 0, 0] : Fin 4 → Nat) a + S1x64x64x256.size a ≤ S2x64x64x256.size a
  inb_S2x64x64x512_S1x64x64x256_1_0_0_0 : ∀ a, (![1, 0, 0, 0] : Fin 4 → Nat) a + S1x64x64x256.size a ≤ S2x64x64x512.size a
  inb_S2x64x64x512_S1x64x64x256_1_0_0_256 : ∀ a, (![1, 0, 0, 256] : Fin 4 → Nat) a + S1x64x64x256.size a ≤ S2x64x64x512.size a
  transposes_S32x64x64x512_S32x512x64x64_0_3_1_2 : S32x64x64x512.Transposes [0, 3, 1, 2] S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x256.size a ≤ S32x64x64x256.size a
  hwx0_0 : ∀ i : grid0.Coords, EltTy.bits .f32 = 32 ∨ (Rect.block (s := S32x64x64x256) S2x64x64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x64x512.size a ≤ S32x64x64x512.size a
  hwx0_1 : ∀ i : grid0.Coords, EltTy.bits .f32 = 32 ∨ (Rect.block (s := S32x64x64x512) S2x64x64x512.size (cc0_transform_1 i) (hinb0_1 i)).WholeWords (EltTy.packing .f32)

variable [Facts₀]

abbrev win0_0 : Pipeline.Window sig grid0 :=
  Pipeline.Window.ofSpec (Memref.whole main_v0) S2x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x64x64x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x256x4096 : Shape := ⟨3, ![32, 256, 4096]⟩
abbrev S32x2x256x4096 : Shape := ⟨4, ![32, 2, 256, 4096]⟩
abbrev S1x256x4096 : Shape := ⟨3, ![1, 256, 4096]⟩
abbrev S1x2x256x4096 : Shape := ⟨4, ![1, 2, 256, 4096]⟩
abbrev S1x256 : Shape := ⟨2, ![1, 256]⟩
abbrev S1x256x1 : Shape := ⟨3, ![1, 256, 1]⟩
abbrev S1x1 : Shape := ⟨2, ![1, 1]⟩
abbrev S1x1x1 : Shape := ⟨3, ![1, 1, 1]⟩
abbrev S1x1x256x4096 : Shape := ⟨4, ![1, 1, 256, 4096]⟩
abbrev S1x1x256x1 : Shape := ⟨4, ![1, 1, 256, 1]⟩
abbrev S32x512x64x64 : Shape := ⟨4, ![32, 512, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S32x256x64x64, .f32⟩
  | .hbm, ⟨1, _⟩ => ⟨S32x256x4096, .f32⟩
  | .hbm, ⟨2, _⟩ => ⟨S32x2x256x4096, .f32⟩
  | .hbm, ⟨3, _⟩ => ⟨S32x512x64x64, .f32⟩
  | .local _ .vmem, ⟨0, _⟩ => ⟨S1x256x4096, .f32⟩
  | .local _ .vmem, ⟨1, _⟩ => ⟨S1x256x4096, .f32⟩
  | .local _ .vmem, ⟨2, _⟩ => ⟨S1x2x256x4096, .f32⟩
  | .local _ .vmem, ⟨3, _⟩ => ⟨S1x2x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S1x256x4096 : S1x256x4096.ShapeCasts S1x256x4096
  reduces_S1x256x4096_S1x256 : S1x256x4096.Reduces [2] S1x256
  shapeCasts_S1x256_S1x256x1 : S1x256.ShapeCasts S1x256x1
  broadcasts_S1x256x1_S1x256x4096 : S1x256x1.Broadcasts S1x256x4096
  reduces_S1x256x1_S1x1 : S1x256x1.Reduces [1] S1x1
  shapeCasts_S1x1_S1x1x1 : S1x1.ShapeCasts S1x1x1
  broadcasts_S1x1x1_S1x256x1 : S1x1x1.Broadcasts S1x256x1
  shapeCasts_S1x256x4096_S1x1x256x4096 : S1x256x4096.ShapeCasts S1x1x256x4096
  shapeCasts_S1x256x1_S1x1x256x1 : S1x256x1.ShapeCasts S1x1x256x1
  shapeCasts_S1x1x256x1_S1x1x256x1 : S1x1x256x1.ShapeCasts S1x1x256x1
  broadcasts_S1x1x256x1_S1x1x256x4096 : S1x1x256x1.Broadcasts S1x1x256x4096
  inb_S1x2x256x4096_S1x1x256x4096_0_0_0_0 : ∀ a, (![0, 0, 0, 0] : Fin 4 → Nat) a + S1x1x256x4096.size a ≤ S1x2x256x4096.size a
  h_S1x1x256x4096 : 0 < S1x1x256x4096.numel
  inb_S1x2x256x4096_S1x1x256x4096_0_1_0_0 : ∀ a, (![0, 1, 0, 0] : Fin 4 → Nat) a + S1x1x256x4096.size a ≤ S1x2x256x4096.size a
  shapeCasts_S32x2x256x4096_S32x512x64x64 : S32x2x256x4096.ShapeCasts S32x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x256x4096.size a ≤ S32x2x256x4096.size a
  hwx0_1 : ∀ i : grid0.Coords, EltTy.bits .f32 = 32 ∨ (Rect.block (s := S32x2x256x4096) S1x2x256x4096.size (cc0_transform_1 i) (hinb0_1 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== Proof.Spec.lean ====
/-
  Image pooling of one sample, as a function on the extended reals.

  A sample is `a c r`: channel `c` (256 of them) at flat spatial position `r = 64·h + w` (4096 of them).
  Two normalisations are computed and stacked along the channel axis:
  * channels 0 … 255: the sample with each channel scaled to unit spatial L2 norm,
      `a c r · rsqrt (max (∑ r, (a c r)²) ε²)`;
  * channels 256 … 511: the spatial mean of each channel, `μ c = (∑ r, a c r) · (1/4096)`, with the vector `μ`
      scaled to unit L2 norm over the channels, `μ c · rsqrt (max (∑ c, (μ c)²) ε²)`, the same at every position.
  `ε²` and `1/4096` are kept as the f32 words both programs carry; nothing here evaluates them.
-/
import Idealize.ShloMosaic.PureOps.Ideal
import Idealize.ShloMosaic.Lib.ValueIdx

noncomputable section

open scoped BigOperators

namespace Cert.ImagePool

open Idealize.ShloMosaic Idealize.ShloMosaic.ValueIdx

/-- The floor under a squared norm: the f32 word of `1e-24`. -/
def epsSq : EReal := Scalar.ofBits (F := Ideal) .f32 0x179ABE15#32
/-- The reciprocal of the number of spatial positions: the f32 word of `1/4096`. -/
def invHW : EReal := Scalar.ofBits (F := Ideal) .f32 0x39800000#32
/-- The reciprocal norm from a squared norm, floored at `ε²`. -/
def invNorm (s : EReal) : EReal :=
  FloatOps.rsqrt (F := Ideal) (φ := .f32) (FloatOps.maximumf (F := Ideal) (φ := .f32) s epsSq)

section Sample
variable (a : Fin 256 → Fin 4096 → EReal)

/-- The squared spatial norm of channel `c`. -/
def sumSq (c : Fin 256) : EReal := ∑ r : Fin 4096, a c r * a c r
/-- The spatial mean of channel `c`. -/
def mean (c : Fin 256) : EReal := (∑ r : Fin 4096, a c r) * invHW
/-- The squared norm, over the channels, of the vector of spatial means. -/
def meanSq : EReal := ∑ c : Fin 256, mean a c * mean a c
/-- Channel `c` at position `r`, the channel scaled to unit spatial norm. -/
def spatial (c : Fin 256) (r : Fin 4096) : EReal := a c r * invNorm (sumSq a c)
/-- The mean of channel `c`, the vector of means scaled to unit norm. -/
def pooled (c : Fin 256) : EReal := mean a c * invNorm (meanSq a)
/-- The 512 output channels of the sample at position `r`: the scaled sample, then the scaled means. -/
def sampleOut (k : Fin 512) (r : Fin 4096) : EReal :=
  if h : k.val < 256 then spatial a ⟨k.val, h⟩ r else pooled a ⟨k.val - 256, by have := k.isLt; omega⟩

end Sample

theorem spatial_congr {a a' : Fin 256 → Fin 4096 → EReal} {c c' : Fin 256} {r r' : Fin 4096}
    (ha : a = a') (hc : c.val = c'.val) (hr : r.val = r'.val) : spatial a c r = spatial a' c' r' := by
  obtain rfl := ha; obtain rfl := Fin.ext hc; obtain rfl := Fin.ext hr; rfl

theorem pooled_congr {a a' : Fin 256 → Fin 4096 → EReal} {c c' : Fin 256}
    (ha : a = a') (hc : c.val = c'.val) : pooled a c = pooled a' c' := by
  obtain rfl := ha; obtain rfl := Fin.ext hc; rfl

/-- An output channel below 256 is a scaled input channel. -/
theorem sampleOut_lo (a : Fin 256 → Fin 4096 → EReal) (k : Fin 512) (r : Fin 4096) (c : Fin 256) (h : k.val = c.val) :
    sampleOut a k r = spatial a c r := by
  unfold sampleOut
  rw [dif_pos (by have := c.isLt; omega)]
  exact spatial_congr rfl h rfl

/-- An output channel from 256 on is a scaled mean. -/
theorem sampleOut_hi (a : Fin 256 → Fin 4096 → EReal) (k : Fin 512) (r : Fin 4096) (c : Fin 256) (h : k.val = 256 + c.val) :
    sampleOut a k r = pooled a c := by
  unfold sampleOut
  rw [dif_neg (by omega)]
  exact pooled_congr rfl (by show k.val - 256 = c.val; omega)

theorem sampleOut_congr {a a' : Fin 256 → Fin 4096 → EReal} {k k' : Fin 512} {r r' : Fin 4096}
    (ha : a = a') (hk : k.val = k'.val) (hr : r.val = r'.val) : sampleOut a k r = sampleOut a' k' r' := by
  obtain rfl := ha; obtain rfl := Fin.ext hk; obtain rfl := Fin.ext hr; rfl

/-! ## The whole arrays -/

/-- The input: 32 samples of 256 channels of 64 × 64 positions. -/
abbrev SIn : Shape := ⟨4, ![32, 256, 64, 64]⟩
/-- The output: 32 samples of 512 channels of 64 × 64 positions. -/
abbrev SOut : Shape := ⟨4, ![32, 512, 64, 64]⟩

/-- The flat position `64·h + w`. -/
def pos (h w : Fin 64) : Fin 4096 := ⟨h.val * 64 + w.val, by have := h.isLt; have := w.isLt; omega⟩
/-- Its row `h` … -/
def rowOf (r : Fin 4096) : Fin 64 := ⟨r.val / 64, by have := r.isLt; omega⟩
/-- … and its column `w`. -/
def colOf (r : Fin 4096) : Fin 64 := ⟨r.val % 64, Nat.mod_lt _ (by decide)⟩

/-- Sample `n` of the input array. -/
def sample (x : SIn.Idx → EReal) (n : Fin 32) : Fin 256 → Fin 4096 → EReal :=
  fun c r => x (ix4 n c (rowOf r) (colOf r))

/-- The result array: entry `(n, k, h, w)` is output channel `k` of sample `n` at position `64·h + w`. -/
def G (x : SIn.Idx → EReal) : SOut.Idx → EReal :=
  fun i => sampleOut (sample x (i 0)) (i 1) (pos (i 2) (i 3))

end Cert.ImagePool

end
-- ==== Proof.LibLeadAxis.lean ====
/-
  Reductions over the LEADING axis of an [m, n] vector, kept as a [1, n] row and broadcast back down the m
  rows (what `jnp.max(x, axis=0, keepdims=True)` and `jnp.sum(x, axis=0, keepdims=True)` become in a kernel
  body), read at an entry (k, j): the fold of `max` from the f32 pattern of −∞, and the plain sum, over the
  m entries of column j.  General in the extents m and n.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LeadAxis

open Idealize.ShloMosaic Idealize.ShloMosaic.ValueIdx

variable {m n : Nat}

/-- The index of the [m, n] vector that reduces to lane `j` with `k` put back on the leading axis is (k, j). -/
theorem lift_lead (h : (⟨2, ![m, n]⟩ : Shape).Reduces [0] ⟨1, ![n]⟩) (j : Fin n) (k : Fin m) :
    h.lift (ix1 j) k = ix2 k j :=
  funext fun a => Fin.ext (by match a with | ⟨0, _⟩ => rfl | ⟨1, _⟩ => rfl)

/-- A maximum over the leading axis, at lane `j`: the fold of `max` from −∞'s pattern down column `j`. -/
theorem max_lead_apply (src : FVec Ideal ⟨2, ![m, n]⟩ .f32) (h : (⟨2, ![m, n]⟩ : Shape).Reduces [0] ⟨1, ![n]⟩)
    (hφ : FKind.Formats .f32) (hacc : (0xFF800000#32 : BitVec 32) = 0xFF800000#32) (j : Fin n) :
    multiReduction .maximumf [0] ⟨1, ![n]⟩ src 0xFF800000#32 h hφ hacc (ix1 j)
      = (Finset.univ : Finset (Fin m)).fold max (Ideal.ofBits .f32 0xFF800000#32) (fun k => src (ix2 k j)) := by
  refine (Ideal.multiReduction_maximumf_single src 0xFF800000#32 h hφ hacc (ix1 j)).trans ?_
  exact congrArg (fun f : Fin m → EReal => (Finset.univ : Finset (Fin m)).fold max (Ideal.ofBits .f32 0xFF800000#32) f)
    (funext fun k => congrArg src (lift_lead h j k))

/-- A sum over the leading axis, at lane `j`: the sum down column `j`. -/
theorem sum_lead_apply (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ k : Fin m, src (ix2 k j) := by
  refine (Ideal.multiReduction_add_single src 0x00000000#32 h hφ hacc (ix1 j)).trans ?_
  exact Finset.sum_congr rfl fun k _ => congrArg src (lift_lead h j k)

/-- A lane vector kept as a one-row matrix and broadcast down `m` rows reads, at (k, j), lane `j`. -/
theorem keepdims_apply {α : Type} (v : (⟨1, ![n]⟩ : Shape).Idx → α) (hc : (⟨1, ![n]⟩ : Shape).ShapeCasts ⟨2, ![1, n]⟩)
    (hb : (⟨2, ![1, n]⟩ : Shape).Broadcasts ⟨2, ![m, n]⟩) (k : Fin m) (j : Fin n) :
    broadcastTo ⟨2, ![m, n]⟩ (shapeCast ⟨2, ![1, n]⟩ v hc) hb (ix2 k j) = v (ix1 j) :=
  (broadcastTo_1b_ab_apply _ hb k j).trans (shapeCast_a_1a_apply v hc 0 j)

/-- A lane vector kept as a one-row matrix reads, at (0, j), lane `j`. -/
theorem keeprow_apply {α : Type} (v : (⟨1, ![n]⟩ : Shape).Idx → α) (hc : (⟨1, ![n]⟩ : Shape).ShapeCasts ⟨2, ![1, n]⟩)
    (u : Fin 1) (j : Fin n) : shapeCast ⟨2, ![1, n]⟩ v hc (ix2 u j) = v (ix1 j) :=
  shapeCast_a_1a_apply v hc u j

end Cert.LeadAxis

end
-- ==== Proof.KernelPayload.lean ====
/-
  What the channels-last kernel stores, entry by entry.

  The body loads one sample as a [1, 64, 64, 256] block `v` (position (h, w), channel last), flattens it to
  [4096, 256] (row `64·h + w`), and sums down the rows: `∑ r, v(r, k)²` and `∑ r, v(r, k)` per channel `k`.
  The first stored piece is the block scaled per channel by `rsqrt (max (∑ r, v(r, k)²) ε²)`; the second repeats at
  every position the channel means scaled by `rsqrt (max (∑ k, mean(k)²) ε²)`.
  Read as a sample (`ofLoad v`), these are `spatial` and `pooled` of the specification.
-/
import proofs.«147713_g2000705136397570_pallasbulk_321_10_alg».proof.Proof.Gen.KernelIdeal.Skeleton
import proofs.«147713_g2000705136397570_pallasbulk_321_10_alg».proof.Proof.Spec
import proofs.«147713_g2000705136397570_pallasbulk_321_10_alg».proof.Proof.LibLeadAxis
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pool

open Cert.KernelIdeal Cert.KernelIdeal.Gen Cert.ImagePool
open Idealize.ShloMosaic Idealize.ShloMosaic.ValueIdx

/-- A loaded [1, 64, 64, 256] block as a sample: channel `c` at flat position `r` is the block at
    (0, r / 64, r % 64, c). -/
def ofLoad (v : Vec Ideal S1x64x64x256 .f32) : Fin 256 → Fin 4096 → EReal :=
  fun c r => v (ix4 (0 : Fin 1) (rowOf r) (colOf r) c)

/-- The flattened block at (r, k) is channel `k` of the sample at position `r`. -/
theorem flat_apply (v : Vec Ideal S1x64x64x256 .f32) (r : Fin 4096) (k : Fin 256) :
    k0_pay4 v (ix2 r k) = ofLoad v k r := by
  unfold k0_pay4
  refine (shapeCast_apply _ _ (ix2 r k) (ix3 (rowOf r) (colOf r) k) ?_).trans ?_
  · rw [Shape.rowMajor_val_three, Shape.rowMajor_val_two]
    show ((r.val / 64) * 64 + r.val % 64) * 256 + k.val = r.val * 256 + k.val
    have := Nat.div_add_mod r.val 64
    omega
  · exact shapeCast_1abc_abc_apply _ _ (rowOf r) (colOf r) k

/-- The position `64·h + w` has row `h` and column `w`. -/
theorem rowOf_pos (h w : Fin 64) : rowOf (pos h w) = h :=
  Fin.ext (by show (h.val * 64 + w.val) / 64 = h.val; have := w.isLt; omega)
theorem colOf_pos (h w : Fin 64) : colOf (pos h w) = w :=
  Fin.ext (by show (h.val * 64 + w.val) % 64 = w.val; have := w.isLt; omega)

/-- The sum of squares down column `k` of the flattened block, kept as a row. -/
theorem sumSq_apply (v : Vec Ideal S1x64x64x256 .f32) (u : Fin 1) (k : Fin 256) :
    shapeCast S1x256 (multiReduction .add [0] S256 (mulf (k0_pay4 v) (k0_pay4 v)) 0x00000000#32
      reduces_S4096x256_S256 (.inl rfl) rfl) shapeCasts_S256_S1x256 (ix2 u k) = sumSq (ofLoad v) k := by
  refine (Cert.LeadAxis.keeprow_apply _ _ u k).trans ?_
  refine (Cert.LeadAxis.sum_lead_apply _ _ _ _ k).trans ?_
  unfold sumSq
  exact Finset.sum_congr rfl fun r _ => congrArg₂ (· * ·) (flat_apply v r k) (flat_apply v r k)

/-- The row of channel means: the column sums times 1/4096. -/
def meanRow (v : Vec Ideal S1x64x64x256 .f32) : FVec Ideal S1x256 .f32 :=
  mulf (shapeCast S1x256 (multiReduction .add [0] S256 (k0_pay4 v) 0x00000000#32 reduces_S4096x256_S256 (.inl rfl) rfl)
    shapeCasts_S256_S1x256) (broadcast S1x256 (Scalar.ofBits .f32 0x39800000#32))

theorem meanRow_apply (v : Vec Ideal S1x64x64x256 .f32) (u : Fin 1) (k : Fin 256) :
    meanRow v (ix2 u k) = mean (ofLoad v) k := by
  unfold meanRow mean
  refine (mulf_apply _ _ _).trans ?_
  refine congrArg₂ (· * ·) ?_ rfl
  refine (Cert.LeadAxis.keeprow_apply _ _ u k).trans ?_
  refine (Cert.LeadAxis.sum_lead_apply _ _ _ _ k).trans ?_
  exact Finset.sum_congr rfl fun r _ => flat_apply v r k

/-- The index of a [1, 256] row that reduces along the lanes to the one entry, with lane `c` put back, is (0, c). -/
theorem lift_lane (h : S1x256.Reduces [1] S1) (c : Fin 256) : h.lift (ix1 (0 : Fin 1)) c = ix2 (0 : Fin 1) c :=
  funext fun a => Fin.ext (by match a with | ⟨0, _⟩ => rfl | ⟨1, _⟩ => rfl)

/-- The squared norm of the row of means, as the one entry of a [1, 1] array. -/
theorem meanSq_apply (v : Vec Ideal S1x64x64x256 .f32) (u u' : Fin 1) :
    shapeCast S1x1 (multiReduction .add [1] S1 (mulf (meanRow v) (meanRow v)) 0x00000000#32 reduces_S1x256_S1 (.inl rfl) rfl)
      shapeCasts_S1_S1x1 (ix2 u u') = meanSq (ofLoad v) := by
  refine (shapeCast_a_1a_apply _ _ u u').trans ?_
  obtain rfl : u' = 0 := Subsingleton.elim _ _
  refine (Ideal.multiReduction_add_single _ _ reduces_S1x256_S1 _ _ (ix1 (0 : Fin 1))).trans ?_
  unfold meanSq
  refine Finset.sum_congr rfl fun c _ => ?_
  refine (congrArg (mulf (meanRow v) (meanRow v)) (lift_lane reduces_S1x256_S1 c)).trans ?_
  exact congrArg₂ (· * ·) (meanRow_apply v 0 c) (meanRow_apply v 0 c)

/-- THE FIRST PIECE: the block with each channel scaled to unit spatial norm. -/
theorem spatial_apply (v : Vec Ideal S1x64x64x256 .f32) (u : Fin 1) (h w : Fin 64) (k : Fin 256) :
    k0_pay5 v (ix4 u h w k) = spatial (ofLoad v) k (pos h w) := by
  unfold k0_pay5
  refine (shapeCast_abc_1abc_apply _ _ u h w k).trans ?_
  refine (shapeCast_apply _ _ (ix3 h w k) (ix2 (pos h w) k) ?_).trans ?_
  · rw [Shape.rowMajor_val_two, Shape.rowMajor_val_three]; rfl
  refine (mulf_apply _ _ _).trans ?_
  unfold spatial
  refine congrArg₂ (· * ·) (flat_apply v (pos h w) k) ?_
  refine (broadcastTo_1b_ab_apply _ _ (pos h w) k).trans ?_
  unfold invNorm
  exact congrArg (FloatOps.rsqrt (F := Ideal) (φ := .f32))
    (congrArg₂ (FloatOps.maximumf (F := Ideal) (φ := .f32)) (sumSq_apply v 0 k) rfl)

/-- The second stored piece is a function of the row of means alone. -/
theorem pay6_eq (v : Vec Ideal S1x64x64x256 .f32) :
    k0_pay6 v = shapeCast S1x64x64x256 (shapeCast S64x64x256 (broadcastTo S4096x256 (shapeCast S1x256
      (mulf (meanRow v) (broadcastTo S1x256 (rsqrt (maximumf (shapeCast S1x1 (multiReduction .add [1] S1
        (mulf (meanRow v) (meanRow v)) 0x00000000#32 reduces_S1x256_S1 (.inl rfl) rfl) shapeCasts_S1_S1x1)
        (broadcast S1x1 (Scalar.ofBits .f32 0x179ABE15#32)))) broadcasts_S1x1_S1x256))
      shapeCasts_S1x256_S1x256) broadcasts_S1x256_S4096x256) shapeCasts_S4096x256_S64x64x256)
      shapeCasts_S64x64x256_S1x64x64x256 := rfl

/-- THE SECOND PIECE: at every position, the channel means scaled to unit norm over the channels. -/
theorem pooled_apply (v : Vec Ideal S1x64x64x256 .f32) (u : Fin 1) (h w : Fin 64) (k : Fin 256) :
    k0_pay6 v (ix4 u h w k) = pooled (ofLoad v) k := by
  rw [pay6_eq]
  refine (shapeCast_abc_1abc_apply _ _ u h w k).trans ?_
  refine (shapeCast_apply _ _ (ix3 h w k) (ix2 (pos h w) k) ?_).trans ?_
  · rw [Shape.rowMajor_val_two, Shape.rowMajor_val_three]; rfl
  refine (broadcastTo_1b_ab_apply _ _ (pos h w) k).trans ?_
  refine (congrFun (shapeCast_self _ _) _).trans ?_
  refine (mulf_apply _ _ _).trans ?_
  unfold pooled
  refine congrArg₂ (· * ·) (meanRow_apply v 0 k) ?_
  refine (broadcastTo_apply _ broadcasts_S1x1_S1x256 (ix2 (0 : Fin 1) k) (ix2 (0 : Fin 1) (0 : Fin 1)) fun ax => ?_).trans ?_
  · match ax with
    | ⟨0, _⟩ => rfl
    | ⟨1, _⟩ => rfl
  unfold invNorm
  exact congrArg (FloatOps.rsqrt (F := Ideal) (φ := .f32))
    (congrArg₂ (FloatOps.maximumf (F := Ideal) (φ := .f32)) (meanSq_apply v 0 0) rfl)

/-- The second sample of a block goes through the same arithmetic as the first. -/
theorem pay2_eq (v : Vec Ideal S1x64x64x256 .f32) : k0_pay2 (k0_pay7 v) = k0_pay5 v := rfl
theorem pay3_eq (v : Vec Ideal S1x64x64x256 .f32) : k0_pay3 (k0_pay7 v) = k0_pay6 v := rfl

end Cert.KernelIdeal.Pool

end
-- ==== Proof.KernelBlock.lean ====
/-
  What the channels-last kernel leaves in its output block, as one function of its input block.

  A grid point handles two samples. For sample `b` of the input block [2, 64, 64, 256] the body stores two pieces
  into the output block [2, 64, 64, 512]: channels 0 … 255 at offset (b, 0, 0, 0) and channels 256 … 511 at offset
  (b, 0, 0, 256). Together the four pieces tile the block, and entry (b, h, w, k) of the block is output channel `k`
  of sample `b` at position `64·h + w`.
-/
import proofs.«147713_g2000705136397570_pallasbulk_321_10_alg».proof.Proof.Gen.KernelIdeal.Frame
import proofs.«147713_g2000705136397570_pallasbulk_321_10_alg».proof.Proof.KernelPayload

set_option maxRecDepth 16384

noncomputable section

open scoped BigOperators

namespace Cert.KernelIdeal.Pool

open Cert.KernelIdeal Cert.KernelIdeal.Gen Cert.ImagePool
open Idealize.ShloMosaic Idealize.ShloMosaic.ValueIdx

/-- Sample `b` of an input block: channel `c` at position `r` is the block at (b, r / 64, r % 64, c). -/
def blockSample (x0 : Vec Ideal S2x64x64x256 .f32) (b : Fin 2) : Fin 256 → Fin 4096 → EReal :=
  fun c r => x0 (ix4 b (rowOf r) (colOf r) c)

/-- The output block as a function of the input block. -/
def blockOut (x0 : Vec Ideal S2x64x64x256 .f32) : S2x64x64x512.Idx → EReal :=
  fun y => sampleOut (blockSample x0 (y 0)) (y 3) (pos (y 1) (y 2))

/-- The load at offset (b, 0, 0, 0) reads sample `b`. -/
theorem ofLoad_ld (x0 : Vec Ideal S2x64x64x256 .f32) (b : Fin 2) (off : Fin 4 → Nat)
    (inb : ∀ a, off a + S1x64x64x256.size a ≤ S2x64x64x256.size a) (hoff : off = ![b.val, 0, 0, 0]) :
    ofLoad (View.ld x0 (Rect.unit (s := S2x64x64x256) off S1x64x64x256.size inb)) = blockSample x0 b := by
  subst hoff
  funext c r
  show x0 ((Rect.unit (s := S2x64x64x256) ![b.val, 0, 0, 0] S1x64x64x256.size inb).emb (ix4 (0 : Fin 1) (rowOf r) (colOf r) c))
    = x0 (ix4 b (rowOf r) (colOf r) c)
  refine congrArg x0 (funext fun a => Fin.ext ?_)
  match a with
  | ⟨0, _⟩ => show b.val + 1 * 0 = b.val; omega
  | ⟨1, _⟩ => show 0 + 1 * (rowOf r).val = (rowOf r).val; omega
  | ⟨2, _⟩ => show 0 + 1 * (colOf r).val = (colOf r).val; omega
  | ⟨3, _⟩ => show 0 + 1 * c.val = c.val; omega

/-- The piece stored at offset (b, 0, 0, 0) holds channels 0 … 255 of sample `b`'s output. -/
theorem spatial_piece (x0 : Vec Ideal S2x64x64x256 .f32) (b : Fin 2) (offL : Fin 4 → Nat)
    (inbL : ∀ a, offL a + S1x64x64x256.size a ≤ S2x64x64x256.size a) (offS : Fin 4 → Nat)
    (inbS : ∀ a, offS a + S1x64x64x256.size a ≤ S2x64x64x512.size a)
    (hL : offL = ![b.val, 0, 0, 0]) (hS : offS = ![b.val, 0, 0, 0]) (z : S1x64x64x256.Idx) :
    k0_pay5 (View.ld x0 (Rect.unit (s := S2x64x64x256) offL S1x64x64x256.size inbL)) z
      = blockOut x0 ((Rect.unit (s := S2x64x64x512) offS S1x64x64x256.size inbS).emb z) := by
  obtain ⟨u, h, w, k, rfl⟩ : ∃ (u : Fin 1) (h w : Fin 64) (k : Fin 256), z = ix4 u h w k := ⟨z 0, z 1, z 2, z 3, eq_ix4 z⟩
  refine (spatial_apply _ u h w k).trans ?_
  rw [ofLoad_ld x0 b offL inbL hL]
  subst hS
  unfold blockOut
  symm
  refine (sampleOut_lo _ _ _ k ?_).trans (spatial_congr ?_ rfl ?_)
  · show 0 + 1 * k.val = k.val; omega
  · refine congrArg (blockSample x0) (Fin.ext ?_)
    show b.val + 1 * u.val = b.val; omega
  · show (0 + 1 * h.val) * 64 + (0 + 1 * w.val) = h.val * 64 + w.val; omega

/-- The piece stored at offset (b, 0, 0, 256) holds channels 256 … 511 of sample `b`'s output. -/
theorem pooled_piece (x0 : Vec Ideal S2x64x64x256 .f32) (b : Fin 2) (offL : Fin 4 → Nat)
    (inbL : ∀ a, offL a + S1x64x64x256.size a ≤ S2x64x64x256.size a) (offS : Fin 4 → Nat)
    (inbS : ∀ a, offS a + S1x64x64x256.size a ≤ S2x64x64x512.size a)
    (hL : offL = ![b.val, 0, 0, 0]) (hS : offS = ![b.val, 0, 0, 256]) (z : S1x64x64x256.Idx) :
    k0_pay6 (View.ld x0 (Rect.unit (s := S2x64x64x256) offL S1x64x64x256.size inbL)) z
      = blockOut x0 ((Rect.unit (s := S2x64x64x512) offS S1x64x64x256.size inbS).emb z) := by
  obtain ⟨u, h, w, k, rfl⟩ : ∃ (u : Fin 1) (h w : Fin 64) (k : Fin 256), z = ix4 u h w k := ⟨z 0, z 1, z 2, z 3, eq_ix4 z⟩
  refine (pooled_apply _ u h w k).trans ?_
  rw [ofLoad_ld x0 b offL inbL hL]
  subst hS
  unfold blockOut
  symm
  refine (sampleOut_hi _ _ _ k ?_).trans (pooled_congr ?_ rfl)
  · show 256 + 1 * k.val = 256 + k.val; omega
  · refine congrArg (blockSample x0) (Fin.ext ?_)
    show b.val + 1 * u.val = b.val; omega

/-- THE OUTPUT BLOCK after the body, entry by entry. -/
theorem out_apply (x0 : Vec Ideal S2x64x64x256 .f32) (y : S2x64x64x512.Idx) : out0_1 x0 y = blockOut x0 y := by
  unfold out0_1
  refine View.canon_apply_of_pieces (Val := Elt Ideal) (S := S2x64x64x512) (e := .f32) (blockOut x0) _ ?_ y (cover0_1 _ _ _ _ y)
  intro p hp
  simp only [List.mem_cons, List.not_mem_nil, or_false] at hp
  rcases hp with rfl | rfl | rfl | rfl
  · intro z
    show k0_pay3 (k0_pay7 _) z = _
    rw [pay3_eq]
    exact pooled_piece x0 1 ![1, 0, 0, 0] inb_S2x64x64x256_S1x64x64x256_1_0_0_0 ![1, 0, 0, 256] inb_S2x64x64x512_S1x64x64x256_1_0_0_256 rfl rfl z
  · intro z
    show k0_pay2 (k0_pay7 _) z = _
    rw [pay2_eq]
    exact spatial_piece x0 1 ![1, 0, 0, 0] inb_S2x64x64x256_S1x64x64x256_1_0_0_0 ![1, 0, 0, 0] inb_S2x64x64x512_S1x64x64x256_1_0_0_0 rfl rfl z
  · intro z
    exact pooled_piece x0 0 ![0, 0, 0, 0] inb_S2x64x64x256_S1x64x64x256_0_0_0_0 ![0, 0, 0, 256] inb_S2x64x64x512_S1x64x64x256_0_0_0_256 rfl rfl z
  · intro z
    exact spatial_piece x0 0 ![0, 0, 0, 0] inb_S2x64x64x256_S1x64x64x256_0_0_0_0 ![0, 0, 0, 0] inb_S2x64x64x512_S1x64x64x256_0_0_0_0 rfl rfl z

end Cert.KernelIdeal.Pool

end
-- ==== Proof.KernelValue.lean ====
/-
  The channels-last program's result array, as one function of its argument.

  The program transposes the argument (n, c, h, w) to channels-last (n, h, w, c), runs the kernel over 16 grid
  points of two samples each, and transposes the kernel's [32, 64, 64, 512] result back to (n, k, h, w).
  Grid point `t` reads samples 2t and 2t + 1 and writes the same two samples of the channels-last result, so the
  blocks tile that array; entry (n, h, w, k) of it is output channel `k` of sample `n` at position `64·h + w`, and
  after the final transpose entry (n, k, h, w) of the result is exactly that: the specification's `G`.
-/
import proofs.«147713_g2000705136397570_pallasbulk_321_10_alg».proof.Proof.Gen.KernelIdeal.Frame
import proofs.«147713_g2000705136397570_pallasbulk_321_10_alg».proof.Proof.KernelBlock
import Idealize.ShloMosaic.Lib.Pipeline.Value
import Idealize.ShloMosaic.Lib.StableHlo.Run
import Idealize.ShloMosaic.Lib.Tactic

set_option maxRecDepth 16384

noncomputable section

open scoped BigOperators

namespace Cert.KernelIdeal.Pool

open Cert.KernelIdeal Cert.KernelIdeal.Gen Cert.ImagePool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument array on core `c`. -/
abbrev arg (c : Dev nD) : SIn.Idx → EReal := m ((c : Thread nD τ).loc main_arg0)

/-- The kernel's operand is the argument transposed to channels-last. -/
theorem entry (c : Dev nD) :
    (V m c main_v0 : S32x64x64x256.Idx → EReal)
      = transpose S32x64x64x256 [0, 2, 3, 1] (arg m c) transposes_S32x256x64x64_S32x64x64x256_0_2_3_1 := by
  show StableHlo.after hostOps0 (fun b => m (c, b)) (Proc.devRef .tc main_v0) = _
  after_results

/-- Its entry (n, h, w, k) is the argument's entry (n, k, h, w). -/
theorem entry_apply (c : Dev nD) (n : Fin 32) (h w : Fin 64) (k : Fin 256) :
    (V m c main_v0 : S32x64x64x256.Idx → EReal) (ix4 n h w k) = arg m c (ix4 n k h w) := by
  rw [entry]
  exact transpose_apply _ _ _ _ _ fun b => match b with
    | ⟨0, _⟩ => rfl
    | ⟨1, _⟩ => rfl
    | ⟨2, _⟩ => rfl
    | ⟨3, _⟩ => rfl

/-- Grid point `t` reads and writes block `t` along the sample axis, block 0 along every other. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- Entry (b, h, w, k) of the input block at point `t` is the argument's entry (2t + b, k, h, w). -/
theorem iblk_apply (c : Dev nD) (t : Fin cfg0.N) (b : Fin 2) (h w : Fin 64) (k : Fin 256) (n : Fin 32)
    (hn : n.val = 2 * t.val + b.val) :
    (iblk m c 0 t : S2x64x64x256.Idx → EReal) (ix4 b h w k) = arg m c (ix4 n k h w) := by
  obtain ⟨e0, e1, e2, e3, -⟩ := idx_facts t
  unfold iblk
  rw [View.read_apply]
  show (V m c main_v0 : S32x64x64x256.Idx → EReal) _ = _
  refine (congrArg (V m c main_v0 : S32x64x64x256.Idx → EReal) ?_).trans (entry_apply m c n h w k)
  funext a
  apply Fin.ext
  match a with
  | ⟨0, _⟩ => show win0_0.index t (0 : Fin 4) * 2 + 1 * b.val = n.val; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 256 + 1 * k.val = k.val; omega

/-- The channels-last result: entry (n, h, w, k) is the specification's entry (n, k, h, w). -/
def mid (x : SIn.Idx → EReal) : S32x64x64x512.Idx → EReal :=
  fun j => G x (ix4 (j 0) (j 3) (j 1) (j 2))

/-- WHAT POINT `t` WRITES BACK is block `t` of the channels-last result. -/
theorem flushed_eq (c : Dev nD) (t : Fin cfg0.N) :
    (dats m 0 c).flushed 1 t = ((cfg0.win 1).blk t).view.read (Elt Ideal) (mid (arg m c)) := by
  show (cfg0.win 1).cut (grid0.coords t) ((dats m 0 c).after 1 t) = _
  rw [after0_1]
  funext y
  show out0_1 (iblk m c 0 t) y = mid (arg m c) (((cfg0.win 1).blk t).view.emb y)
  refine (out_apply (iblk m c 0 t) y).trans ?_
  obtain ⟨-, -, -, -, e0, e1, e2, e3⟩ := idx_facts t
  unfold blockOut mid G
  refine sampleOut_congr ?_ ?_ ?_
  · funext c' r
    refine iblk_apply m c t (y 0) (rowOf r) (colOf r) c' _ ?_
    show win0_1.index t (0 : Fin 4) * 2 + 1 * (y 0).val = 2 * t.val + (y 0).val
    omega
  · show (y 3).val = win0_1.index t (3 : Fin 4) * 512 + 1 * (y 3).val
    omega
  · show (y 1).val * 64 + (y 2).val
      = (win0_1.index t (1 : Fin 4) * 64 + 1 * (y 1).val) * 64 + (win0_1.index t (2 : Fin 4) * 64 + 1 * (y 2).val)
    omega

/-- An index is in point `t`'s block iff each coordinate is in the block's range on its axis. -/
theorem mem_blk (t : Fin cfg0.N) (i : S32x64x64x512.Idx) :
    i ∈ ((cfg0.win 1).blk t).view.set ↔ ∀ a : Fin 4, win0_1.index t a * S2x64x64x512.size a ≤ (i a).val
      ∧ (i a).val < win0_1.index t a * S2x64x64x512.size a + S2x64x64x512.size a := by
  show i ∈ ((View.whole main_v1).slice (win0_1.rect t)).set ↔ _
  rw [View.set_slice_whole, Rect.mem_set_unit]
  exact Iff.rfl

/-- Sample `n` of the channels-last result is written by point `n / 2`. -/
theorem cover (i : S32x64x64x512.Idx) :
    ∃ t : Fin cfg0.N, (cfg0.win 1).flush t = true ∧ i ∈ ((cfg0.win 1).blk t).view.set := by
  have h0 : (i 0).val < 32 := (i 0).isLt
  have h1 : (i 1).val < 64 := (i 1).isLt
  have h2 : (i 2).val < 64 := (i 2).isLt
  have h3 : (i 3).val < 512 := (i 3).isLt
  obtain ⟨t, ht⟩ : ∃ t : Fin cfg0.N, t.val = (i 0).val / 2 :=
    ⟨⟨(i 0).val / 2, by rw [show cfg0.N = 16 from N_0]; omega⟩, rfl⟩
  refine ⟨t, flush0_1 t, ?_⟩
  rw [mem_blk]
  obtain ⟨-, -, -, -, e0, e1, e2, e3⟩ := idx_facts t
  intro a
  match a with
  | ⟨0, _⟩ =>
    show win0_1.index t (0 : Fin 4) * 2 ≤ (i 0).val ∧ (i 0).val < win0_1.index t (0 : Fin 4) * 2 + 2
    omega
  | ⟨1, _⟩ =>
    show win0_1.index t (1 : Fin 4) * 64 ≤ (i 1).val ∧ (i 1).val < win0_1.index t (1 : Fin 4) * 64 + 64
    omega
  | ⟨2, _⟩ =>
    show win0_1.index t (2 : Fin 4) * 64 ≤ (i 2).val ∧ (i 2).val < win0_1.index t (2 : Fin 4) * 64 + 64
    omega
  | ⟨3, _⟩ =>
    show win0_1.index t (3 : Fin 4) * 512 ≤ (i 3).val ∧ (i 3).val < win0_1.index t (3 : Fin 4) * 512 + 512
    omega

/-- THE CHANNELS-LAST ARRAY after the region. -/
theorem final (c : Dev nD) : (dats m 0 c).arrAt 1 cfg0.N = mid (arg m c) :=
  (dats m 0 c).arrAt_eq_of_cover 1 (mid (arg m c)) (fun t _ => flushed_eq m c t) cover

/-- THE RESULT ARRAY: the channels-last array transposed back is the specification's `G` of the argument. -/
theorem result_eq (c : Dev nD) :
    Pipeline.afterTail₀ cfgs (dats m) 0 (V0 m) [hostOps1] c main_v2 = G (arg m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = mid (arg m c) :=
    (Pipeline.withArrays_arr spec0 launch0.win.arr_inj c _ _ 1).trans (final m c)
  rw [e]
  funext i
  refine (transpose_apply _ _ _ i (ix4 (i 0) (i 2) (i 3) (i 1)) fun b => ?_).trans ?_
  · match b with
    | ⟨0, _⟩ => rfl
    | ⟨1, _⟩ => rfl
    | ⟨2, _⟩ => rfl
    | ⟨3, _⟩ => rfl
  · show G (arg m c) (ix4 (i 0) (i 1) (i 2) (i 3)) = G (arg m c) i
    exact congrArg (G (arg m c)) (eq_ix4 i).symm

/-- THE RUN, READ: every weakly fair execution ends with the result array at the specification's `G` of the
    argument, the argument unchanged. -/
theorem run : θ_run defs (onTc (τ := τ) (main (F := Ideal))) ⟨m, fun _ => 0, ρ⟩ fun r => ∀ c : Dev nD,
      r.2.mem ((c : Thread nD τ).loc main_v2) = G (arg m c)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Pool

end
-- ==== Proof.ReferencePayload.lean ====
/-
  What the channels-first kernel stores, entry by entry.

  The body loads one sample as a [1, 256, 4096] block `v` (channel, then flat position), sums along the positions:
  `∑ p, v(c, p)²` and `∑ p, v(c, p)` per channel `c`, kept as [1, 256, 1] columns.
  Plane 0 of what it stores is the block scaled per channel by `rsqrt (max (∑ p, v(c, p)²) ε²)`; plane 1 repeats
  along the positions the channel means scaled by `rsqrt (max (∑ c, mean(c)²) ε²)`.
  Read as a sample (`ofLoad v`), these are `spatial` and `pooled` of the specification.
-/
import proofs.«147713_g2000705136397570_pallasbulk_321_10_alg».proof.Proof.Gen.ReferenceIdeal.Skeleton
import proofs.«147713_g2000705136397570_pallasbulk_321_10_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Pool

open Cert.ReferenceIdeal Cert.ReferenceIdeal.Gen Cert.ImagePool
open Idealize.ShloMosaic Idealize.ShloMosaic.ValueIdx

/-- A loaded [1, 256, 4096] block as a sample: channel `c` at flat position `p` is the block at (0, c, p). -/
def ofLoad (v : Vec Ideal S1x256x4096 .f32) : Fin 256 → Fin 4096 → EReal :=
  fun c p => v (ix3 (0 : Fin 1) c p)

/-- The loaded block (its shape cast to the same shape) at (u, c, p). -/
theorem load_apply (v : Vec Ideal S1x256x4096 .f32) (u : Fin 1) (c : Fin 256) (p : Fin 4096) :
    k0_pay1 v (ix3 u c p) = ofLoad v c p := by
  unfold k0_pay1
  obtain rfl : u = 0 := Subsingleton.elim _ _
  exact congrFun (shapeCast_self _ _) _

/-- The index that reduces along the positions to (u, c), with position `p` put back, is (u, c, p). -/
theorem lift_pos (h : S1x256x4096.Reduces [2] S1x256) (u : Fin 1) (c : Fin 256) (p : Fin 4096) :
    h.lift (ix2 u c) p = ix3 u c p :=
  funext fun a => Fin.ext (by match a with | ⟨0, _⟩ => rfl | ⟨1, _⟩ => rfl | ⟨2, _⟩ => rfl)

/-- The index that reduces along the channels to (u, u'), with channel `c` put back, is (u, c, u'). -/
theorem lift_chan (h : S1x256x1.Reduces [1] S1x1) (u u' : Fin 1) (c : Fin 256) :
    h.lift (ix2 u u') c = ix3 u c u' :=
  funext fun a => Fin.ext (by match a with | ⟨0, _⟩ => rfl | ⟨1, _⟩ => rfl | ⟨2, _⟩ => rfl)

/-- A [1, 256] row kept as a [1, 256, 1] column, at (u, c, u'). -/
theorem col_apply {α : Type} (x : S1x256.Idx → α) (u u' : Fin 1) (c : Fin 256) :
    shapeCast S1x256x1 x shapeCasts_S1x256_S1x256x1 (ix3 u c u') = x (ix2 u c) :=
  shapeCast_apply x _ _ _ (by
    rw [Shape.rowMajor_val_two, Shape.rowMajor_val_three]
    show u.val * 256 + c.val = (u.val * 256 + c.val) * 1 + u'.val
    have : u'.val = 0 := by omega
    omega)

/-- The sum of squares along the positions of channel `c`, kept as a column. -/
theorem sumSq_apply (v : Vec Ideal S1x256x4096 .f32) (u u' : Fin 1) (c : Fin 256) :
    shapeCast S1x256x1 (multiReduction .add [2] S1x256 (mulf (k0_pay1 v) (k0_pay1 v)) 0x00000000#32
      reduces_S1x256x4096_S1x256 (.inl rfl) rfl) shapeCasts_S1x256_S1x256x1 (ix3 u c u') = sumSq (ofLoad v) c := by
  refine (col_apply _ u u' c).trans ?_
  refine (Ideal.multiReduction_add_single _ _ reduces_S1x256x4096_S1x256 _ _ (ix2 u c)).trans ?_
  unfold sumSq
  refine Finset.sum_congr rfl fun p _ => ?_
  refine (congrArg (mulf (k0_pay1 v) (k0_pay1 v)) (lift_pos reduces_S1x256x4096_S1x256 u c p)).trans ?_
  exact congrArg₂ (· * ·) (load_apply v u c p) (load_apply v u c p)

/-- The column of channel means: the sums along the positions times 1/4096. -/
def meanCol (v : Vec Ideal S1x256x4096 .f32) : FVec Ideal S1x256x1 .f32 :=
  mulf (shapeCast S1x256x1 (multiReduction .add [2] S1x256 (k0_pay1 v) 0x00000000#32 reduces_S1x256x4096_S1x256 (.inl rfl) rfl)
    shapeCasts_S1x256_S1x256x1) (broadcast S1x256x1 (Scalar.ofBits .f32 0x39800000#32))

theorem meanCol_apply (v : Vec Ideal S1x256x4096 .f32) (u u' : Fin 1) (c : Fin 256) :
    meanCol v (ix3 u c u') = mean (ofLoad v) c := by
  unfold meanCol mean
  refine (mulf_apply _ _ _).trans ?_
  refine congrArg₂ (· * ·) ?_ rfl
  refine (col_apply _ u u' c).trans ?_
  refine (Ideal.multiReduction_add_single _ _ reduces_S1x256x4096_S1x256 _ _ (ix2 u c)).trans ?_
  refine Finset.sum_congr rfl fun p _ => ?_
  refine (congrArg (k0_pay1 v) (lift_pos reduces_S1x256x4096_S1x256 u c p)).trans ?_
  exact load_apply v u c p

/-- The squared norm of the column of means, as the one entry of a [1, 1, 1] array. -/
theorem meanSq_apply (v : Vec Ideal S1x256x4096 .f32) (u u' u'' : Fin 1) :
    shapeCast S1x1x1 (multiReduction .add [1] S1x1 (mulf (meanCol v) (meanCol v)) 0x00000000#32 reduces_S1x256x1_S1x1 (.inl rfl) rfl)
      shapeCasts_S1x1_S1x1x1 (ix3 u u' u'') = meanSq (ofLoad v) := by
  refine (shapeCast_ab_1ab_apply _ _ u u' u'').trans ?_
  refine (Ideal.multiReduction_add_single _ _ reduces_S1x256x1_S1x1 _ _ (ix2 u' u'')).trans ?_
  unfold meanSq
  refine Finset.sum_congr rfl fun c _ => ?_
  refine (congrArg (mulf (meanCol v) (meanCol v)) (lift_chan reduces_S1x256x1_S1x1 u' u'' c)).trans ?_
  exact congrArg₂ (· * ·) (meanCol_apply v u' u'' c) (meanCol_apply v u' u'' c)

/-- PLANE 0: the block with each channel scaled to unit spatial norm. -/
theorem spatial_apply (v : Vec Ideal S1x256x4096 .f32) (u u' : Fin 1) (c : Fin 256) (p : Fin 4096) :
    k0_pay2 v (ix4 u u' c p) = spatial (ofLoad v) c p := by
  unfold k0_pay2
  refine (shapeCast_abc_1abc_apply _ _ u u' c p).trans ?_
  refine (mulf_apply _ _ _).trans ?_
  unfold spatial
  refine congrArg₂ (· * ·) (load_apply v u' c p) ?_
  refine (broadcastTo_apply _ broadcasts_S1x256x1_S1x256x4096 (ix3 u' c p) (ix3 (0 : Fin 1) c (0 : Fin 1)) fun ax => ?_).trans ?_
  · match ax with
    | ⟨0, _⟩ => rfl
    | ⟨1, _⟩ => rfl
    | ⟨2, _⟩ => rfl
  unfold invNorm
  exact congrArg (FloatOps.rsqrt (F := Ideal) (φ := .f32))
    (congrArg₂ (FloatOps.maximumf (F := Ideal) (φ := .f32)) (sumSq_apply v 0 0 c) rfl)

/-- Plane 1 is a function of the column of means alone. -/
theorem pay3_eq (v : Vec Ideal S1x256x4096 .f32) :
    k0_pay3 v = broadcastTo S1x1x256x4096 (shapeCast S1x1x256x1 (shapeCast S1x1x256x1
      (mulf (meanCol v) (broadcastTo S1x256x1 (rsqrt (maximumf (shapeCast S1x1x1 (multiReduction .add [1] S1x1
        (mulf (meanCol v) (meanCol v)) 0x00000000#32 reduces_S1x256x1_S1x1 (.inl rfl) rfl) shapeCasts_S1x1_S1x1x1)
        (broadcast S1x1x1 (Scalar.ofBits .f32 0x179ABE15#32)))) broadcasts_S1x1x1_S1x256x1))
      shapeCasts_S1x256x1_S1x1x256x1) shapeCasts_S1x1x256x1_S1x1x256x1) broadcasts_S1x1x256x1_S1x1x256x4096 := rfl

/-- PLANE 1: at every position, the channel means scaled to unit norm over the channels. -/
theorem pooled_apply (v : Vec Ideal S1x256x4096 .f32) (u u' : Fin 1) (c : Fin 256) (p : Fin 4096) :
    k0_pay3 v (ix4 u u' c p) = pooled (ofLoad v) c := by
  rw [pay3_eq]
  refine (broadcastTo_apply _ broadcasts_S1x1x256x1_S1x1x256x4096 (ix4 u u' c p)
    (ix4 (0 : Fin 1) (0 : Fin 1) c (0 : Fin 1)) fun ax => ?_).trans ?_
  · match ax with
    | ⟨0, _⟩ => rfl
    | ⟨1, _⟩ => rfl
    | ⟨2, _⟩ => rfl
    | ⟨3, _⟩ => rfl
  refine (congrFun (shapeCast_self _ _) _).trans ?_
  refine (shapeCast_abc_1abc_apply _ _ (0 : Fin 1) (0 : Fin 1) c (0 : Fin 1)).trans ?_
  refine (mulf_apply _ _ _).trans ?_
  unfold pooled
  refine congrArg₂ (· * ·) (meanCol_apply v 0 0 c) ?_
  refine (broadcastTo_apply _ broadcasts_S1x1x1_S1x256x1 (ix3 (0 : Fin 1) c (0 : Fin 1))
    (ix3 (0 : Fin 1) (0 : Fin 1) (0 : Fin 1)) fun ax => ?_).trans ?_
  · match ax with
    | ⟨0, _⟩ => rfl
    | ⟨1, _⟩ => rfl
    | ⟨2, _⟩ => rfl
  unfold invNorm
  exact congrArg (FloatOps.rsqrt (F := Ideal) (φ := .f32))
    (congrArg₂ (FloatOps.maximumf (F := Ideal) (φ := .f32)) (meanSq_apply v 0 0 0) rfl)

end Cert.ReferenceIdeal.Pool

end
-- ==== Proof.ReferenceBlock.lean ====
/-
  What the channels-first kernel leaves in its output block, as one function of its input block.

  A grid point handles one sample: the input block is [1, 256, 4096], the output block [1, 2, 256, 4096]. The body
  stores plane 0 (the scaled sample) at offset (0, 0, 0, 0) and plane 1 (the scaled means) at offset (0, 1, 0, 0);
  the two planes tile the block, and entry (0, q, c, p) of the block is output channel `256·q + c` of the sample
  at position `p`.
-/
import proofs.«147713_g2000705136397570_pallasbulk_321_10_alg».proof.Proof.Gen.ReferenceIdeal.Frame
import proofs.«147713_g2000705136397570_pallasbulk_321_10_alg».proof.Proof.ReferencePayload

set_option maxRecDepth 16384

noncomputable section

open scoped BigOperators

namespace Cert.ReferenceIdeal.Pool

open Cert.ReferenceIdeal Cert.ReferenceIdeal.Gen Cert.ImagePool
open Idealize.ShloMosaic Idealize.ShloMosaic.ValueIdx

/-- Output channel `256·q + c`: channel `c` of plane `q`. -/
def chan (q : Fin 2) (c : Fin 256) : Fin 512 := ⟨q.val * 256 + c.val, by have := q.isLt; have := c.isLt; omega⟩

/-- The output block as a function of the input block. -/
def blockOut (x0 : Vec Ideal S1x256x4096 .f32) : S1x2x256x4096.Idx → EReal :=
  fun y => sampleOut (ofLoad x0) (chan (y 1) (y 2)) (y 3)

theorem hz3 : (![0, 0, 0] : Fin 3 → Nat) = fun _ => 0 := funext fun a => by fin_cases a <;> rfl

/-- The body's one load reads the whole input block. -/
theorem ld_whole (x0 : Vec Ideal S1x256x4096 .f32) : View.ld x0 r0_0 = x0 :=
  View.ld_unit_zero (S := S1x256x4096) hz3 _ x0

/-- Plane 0 holds channels 0 … 255 of the sample's output. -/
theorem spatial_piece (x0 : Vec Ideal S1x256x4096 .f32) (z : S1x1x256x4096.Idx) :
    k0_pay2 (View.ld x0 r0_0) z = blockOut x0 (r0_1.emb z) := by
  obtain ⟨u, u', c, p, rfl⟩ : ∃ (u u' : Fin 1) (c : Fin 256) (p : Fin 4096), z = ix4 u u' c p := ⟨z 0, z 1, z 2, z 3, eq_ix4 z⟩
  rw [ld_whole]
  refine (spatial_apply _ u u' c p).trans ?_
  unfold blockOut
  symm
  refine (sampleOut_lo _ _ _ c ?_).trans (spatial_congr rfl rfl ?_)
  · show (0 + 1 * u'.val) * 256 + (0 + 1 * c.val) = c.val
    have : u'.val = 0 := by omega
    omega
  · show 0 + 1 * p.val = p.val; omega

/-- Plane 1 holds channels 256 … 511 of the sample's output. -/
theorem pooled_piece (x0 : Vec Ideal S1x256x4096 .f32) (z : S1x1x256x4096.Idx) :
    k0_pay3 (View.ld x0 r0_0) z = blockOut x0 (r0_2.emb z) := by
  obtain ⟨u, u', c, p, rfl⟩ : ∃ (u u' : Fin 1) (c : Fin 256) (p : Fin 4096), z = ix4 u u' c p := ⟨z 0, z 1, z 2, z 3, eq_ix4 z⟩
  rw [ld_whole]
  refine (pooled_apply _ u u' c p).trans ?_
  unfold blockOut
  symm
  refine (sampleOut_hi _ _ _ c ?_).trans rfl
  show (1 + 1 * u'.val) * 256 + (0 + 1 * c.val) = 256 + c.val
  have : u'.val = 0 := by omega
  omega

/-- THE OUTPUT BLOCK after the body, entry by entry. -/
theorem out_apply (x0 : Vec Ideal S1x256x4096 .f32) (y : S1x2x256x4096.Idx) : out0_1 x0 y = blockOut x0 y := by
  unfold out0_1
  refine View.canon_apply_of_pieces (Val := Elt Ideal) (S := S1x2x256x4096) (e := .f32) (blockOut x0) _ ?_ y (cover0_1 _ _ y)
  intro p hp
  simp only [List.mem_cons, List.not_mem_nil, or_false] at hp
  rcases hp with rfl | rfl
  · intro z
    exact pooled_piece x0 z
  · intro z
    exact spatial_piece x0 z

end Cert.ReferenceIdeal.Pool

end
-- ==== Proof.ReferenceValue.lean ====
/-
  The channels-first program's result array, as one function of its argument.

  The program reshapes the argument (n, c, h, w) to (n, c, p) with `p = 64·h + w`, runs the kernel over 32 grid
  points of one sample each, and reshapes the kernel's [32, 2, 256, 4096] result (sample, plane, channel, position)
  to (n, k, h, w) with `k = 256·plane + channel`.
  Grid point `t` reads sample `t` and writes sample `t` of the four-axis result, so the blocks tile that array; its
  entry (n, q, c, p) is output channel `256·q + c` of sample `n` at position `p`, and after the final reshape entry
  (n, k, h, w) of the result is the specification's `G`.
-/
import proofs.«147713_g2000705136397570_pallasbulk_321_10_alg».proof.Proof.Gen.ReferenceIdeal.Frame
import proofs.«147713_g2000705136397570_pallasbulk_321_10_alg».proof.Proof.ReferenceBlock
import Idealize.ShloMosaic.Lib.Pipeline.Value
import Idealize.ShloMosaic.Lib.StableHlo.Run
import Idealize.ShloMosaic.Lib.Tactic

set_option maxRecDepth 16384

noncomputable section

open scoped BigOperators

namespace Cert.ReferenceIdeal.Pool

open Cert.ReferenceIdeal Cert.ReferenceIdeal.Gen Cert.ImagePool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument array on core `c`. -/
abbrev arg (c : Dev nD) : SIn.Idx → EReal := m ((c : Thread nD τ).loc main_arg0)

/-- The kernel's operand is the argument with its two spatial axes flattened. -/
theorem entry (c : Dev nD) :
    (V m c main_v0 : S32x256x4096.Idx → EReal)
      = shapeCast S32x256x4096 (arg m c) shapeCasts_S32x256x64x64_S32x256x4096 := by
  show StableHlo.after hostOps0 (fun b => m (c, b)) (Proc.devRef .tc main_v0) = _
  after_results
  rfl

/-- Its entry (n, c, p) is the argument's entry (n, c, p / 64, p % 64). -/
theorem entry_apply (c : Dev nD) (n : Fin 32) (c' : Fin 256) (p : Fin 4096) :
    (V m c main_v0 : S32x256x4096.Idx → EReal) (ix3 n c' p) = arg m c (ix4 n c' (rowOf p) (colOf p)) := by
  rw [entry]
  refine shapeCast_apply _ _ _ _ ?_
  rw [Shape.rowMajor_val_four, Shape.rowMajor_val_three]
  show ((n.val * 256 + c'.val) * 64 + p.val / 64) * 64 + p.val % 64 = (n.val * 256 + c'.val) * 4096 + p.val
  omega

/-- Grid point `t` reads and writes block `t` along the sample axis, block 0 along every other. -/
theorem idx_facts : ∀ t : Fin cfg0.N, win0_0.index t (0 : Fin 3) = t.val ∧ win0_0.index t (1 : Fin 3) = 0
    ∧ win0_0.index t (2 : Fin 3) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- Entry (0, c, p) of the input block at point `t` is the argument's entry (t, c, p / 64, p % 64). -/
theorem iblk_apply (c : Dev nD) (t : Fin cfg0.N) (u : Fin 1) (c' : Fin 256) (p : Fin 4096) (n : Fin 32)
    (hn : n.val = t.val) :
    (iblk m c 0 t : S1x256x4096.Idx → EReal) (ix3 u c' p) = arg m c (ix4 n c' (rowOf p) (colOf p)) := by
  obtain ⟨e0, e1, e2, -⟩ := idx_facts t
  have hu : u.val = 0 := by omega
  unfold iblk
  rw [View.read_apply]
  show (V m c main_v0 : S32x256x4096.Idx → EReal) _ = _
  refine (congrArg (V m c main_v0 : S32x256x4096.Idx → EReal) ?_).trans (entry_apply m c n c' p)
  funext a
  apply Fin.ext
  match a with
  | ⟨0, _⟩ => show win0_0.index t (0 : Fin 3) * 1 + 1 * u.val = n.val; omega
  | ⟨1, _⟩ => show win0_0.index t (1 : Fin 3) * 256 + 1 * c'.val = c'.val; omega
  | ⟨2, _⟩ => show win0_0.index t (2 : Fin 3) * 4096 + 1 * p.val = p.val; omega

/-- The four-axis result: entry (n, q, c, p) is the specification's entry (n, 256·q + c, p / 64, p % 64). -/
def mid (x : SIn.Idx → EReal) : S32x2x256x4096.Idx → EReal :=
  fun j => G x (ix4 (j 0) (chan (j 1) (j 2)) (rowOf (j 3)) (colOf (j 3)))

/-- WHAT POINT `t` WRITES BACK is block `t` of the four-axis result. -/
theorem flushed_eq (c : Dev nD) (t : Fin cfg0.N) :
    (dats m 0 c).flushed 1 t = ((cfg0.win 1).blk t).view.read (Elt Ideal) (mid (arg m c)) := by
  show (cfg0.win 1).cut (grid0.coords t) ((dats m 0 c).after 1 t) = _
  rw [after0_1]
  funext y
  show out0_1 (iblk m c 0 t) y = mid (arg m c) (((cfg0.win 1).blk t).view.emb y)
  refine (out_apply (iblk m c 0 t) y).trans ?_
  obtain ⟨-, -, -, e0, e1, e2, e3⟩ := idx_facts t
  have hy0 : (y 0).val < 1 := (y 0).isLt
  unfold blockOut mid G
  refine sampleOut_congr ?_ ?_ ?_
  · funext c' r
    refine iblk_apply m c t (0 : Fin 1) c' r _ ?_
    show win0_1.index t (0 : Fin 4) * 1 + 1 * (y 0).val = t.val
    omega
  · show (y 1).val * 256 + (y 2).val
      = (win0_1.index t (1 : Fin 4) * 2 + 1 * (y 1).val) * 256 + (win0_1.index t (2 : Fin 4) * 256 + 1 * (y 2).val)
    omega
  · show (y 3).val = (win0_1.index t (3 : Fin 4) * 4096 + 1 * (y 3).val) / 64 * 64
      + (win0_1.index t (3 : Fin 4) * 4096 + 1 * (y 3).val) % 64
    omega

/-- An index is in point `t`'s block iff each coordinate is in the block's range on its axis. -/
theorem mem_blk (t : Fin cfg0.N) (i : S32x2x256x4096.Idx) :
    i ∈ ((cfg0.win 1).blk t).view.set ↔ ∀ a : Fin 4, win0_1.index t a * S1x2x256x4096.size a ≤ (i a).val
      ∧ (i a).val < win0_1.index t a * S1x2x256x4096.size a + S1x2x256x4096.size a := by
  show i ∈ ((View.whole main_v1).slice (win0_1.rect t)).set ↔ _
  rw [View.set_slice_whole, Rect.mem_set_unit]
  exact Iff.rfl

/-- Sample `n` of the four-axis result is written by point `n`. -/
theorem cover (i : S32x2x256x4096.Idx) :
    ∃ t : Fin cfg0.N, (cfg0.win 1).flush t = true ∧ i ∈ ((cfg0.win 1).blk t).view.set := by
  have h0 : (i 0).val < 32 := (i 0).isLt
  have h1 : (i 1).val < 2 := (i 1).isLt
  have h2 : (i 2).val < 256 := (i 2).isLt
  have h3 : (i 3).val < 4096 := (i 3).isLt
  obtain ⟨t, ht⟩ : ∃ t : Fin cfg0.N, t.val = (i 0).val :=
    ⟨⟨(i 0).val, by rw [show cfg0.N = 32 from N_0]; omega⟩, rfl⟩
  refine ⟨t, flush0_1 t, ?_⟩
  rw [mem_blk]
  obtain ⟨-, -, -, e0, e1, e2, e3⟩ := idx_facts t
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 2 ≤ (i 1).val ∧ (i 1).val < win0_1.index t (1 : Fin 4) * 2 + 2
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 4096 ≤ (i 3).val ∧ (i 3).val < win0_1.index t (3 : Fin 4) * 4096 + 4096
    omega

/-- THE FOUR-AXIS ARRAY after the region. -/
theorem final (c : Dev nD) : (dats m 0 c).arrAt 1 cfg0.N = mid (arg m c) :=
  (dats m 0 c).arrAt_eq_of_cover 1 (mid (arg m c)) (fun t _ => flushed_eq m c t) cover

/-- THE RESULT ARRAY: the four-axis array reshaped is the specification's `G` of the argument. -/
theorem result_eq (c : Dev nD) :
    Pipeline.afterTail₀ cfgs (dats m) 0 (V0 m) [hostOps1] c main_v2 = G (arg m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = mid (arg m c) :=
    (Pipeline.withArrays_arr spec0 launch0.win.arr_inj c _ _ 1).trans (final m c)
  refine funext fun (i : S32x512x64x64.Idx) => ?_
  show shapeCast S32x512x64x64 (Pipeline.withArrays (cfgs 0).spec c (V0 m c) (fun w => (dats m 0 c).arrAt w (cfgs 0).N)
    (Proc.devRef .tc main_v1)) shapeCasts_S32x2x256x4096_S32x512x64x64 i = _
  rw [e]
  obtain ⟨n, k, h, w, rfl⟩ : ∃ (n : Fin 32) (k : Fin 512) (h w : Fin 64), i = ix4 n k h w :=
    ⟨i 0, i 1, i 2, i 3, eq_ix4 i⟩
  have hk : k.val < 512 := k.isLt
  have hw : w.val < 64 := w.isLt
  refine (shapeCast_apply _ _ (ix4 n k h w) (ix4 n (⟨k.val / 256, by omega⟩ : Fin 2)
    (⟨k.val % 256, by omega⟩ : Fin 256) (pos h w)) ?_).trans ?_
  · refine ((Shape.rowMajor_val_four _).trans ?_).trans (Shape.rowMajor_val_four _).symm
    show ((n.val * 2 + k.val / 256) * 256 + k.val % 256) * 4096 + (h.val * 64 + w.val)
      = ((n.val * 512 + k.val) * 64 + h.val) * 64 + w.val
    omega
  · unfold mid
    refine congrArg (G (arg m c)) (funext fun a => Fin.ext ?_)
    match a with
    | ⟨0, _⟩ => rfl
    | ⟨1, _⟩ => show k.val / 256 * 256 + k.val % 256 = k.val; omega
    | ⟨2, _⟩ => show (h.val * 64 + w.val) / 64 = h.val; omega
    | ⟨3, _⟩ => show (h.val * 64 + w.val) % 64 = w.val; omega

/-- THE RUN, READ: every weakly fair execution ends with the result array at the specification's `G` of the
    argument, the argument unchanged. -/
theorem run : θ_run defs (onTc (τ := τ) (main (F := Ideal))) ⟨m, fun _ => 0, ρ⟩ fun r => ∀ c : Dev nD,
      r.2.mem ((c : Thread nD τ).loc main_v2) = G (arg m c)
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.ReferenceIdeal.Pool

end
-- ==== Proof.lean ====
/-
  Image pooling: a channels-last kernel against a channels-first kernel.

  Both programs map an array x of 32 samples × 256 channels × 64 × 64 positions to 32 × 512 × 64 × 64:
  * output channels 0 … 255 are x with each (sample, channel) plane scaled to unit L2 norm over its 4096 positions,
    `x · rsqrt (max (∑ x²) ε²)`;
  * output channels 256 … 511 repeat at every position the per-channel spatial means `μ = (∑ x) · (1/4096)`, the
    vector μ of a sample scaled to unit L2 norm over its 256 channels, `μ · rsqrt (max (∑ μ²) ε²)`.
  One program transposes x to channels-last, handles two samples per grid point (sums running down the 4096 rows
  of a [4096, 256] matrix) and transposes back; the other flattens the positions, handles one sample per grid point
  (sums running along the 4096 lanes of a [256, 4096] matrix) and reshapes back. Both flatten a position (h, w) to
  `64·h + w`, both carry the same f32 words for ε² and 1/4096, and each sum ranges over the same index set in the
  same order, so at the extended reals the two result arrays are one function `G` of the argument
  (Proof/Spec.lean) with no algebraic law needed and no use of the inputs' finiteness:
  Proof/KernelValue.lean and Proof/ReferenceValue.lean each show their program's result is `G` of its argument.
  The three frame claims are the generated frames; the idealization rewrote nothing, so `preserves` is trivial.
-/
import proofs.«147713_g2000705136397570_pallasbulk_321_10_alg».proof.Defs
import proofs.«147713_g2000705136397570_pallasbulk_321_10_alg».proof.Proof.Gen.Kernel
import proofs.«147713_g2000705136397570_pallasbulk_321_10_alg».proof.Proof.Gen.Kernel.Skeleton
import proofs.«147713_g2000705136397570_pallasbulk_321_10_alg».proof.Proof.Gen.Kernel.Launch
import proofs.«147713_g2000705136397570_pallasbulk_321_10_alg».proof.Proof.Gen.Kernel.Points
import proofs.«147713_g2000705136397570_pallasbulk_321_10_alg».proof.Proof.Gen.Kernel.Frame
import proofs.«147713_g2000705136397570_pallasbulk_321_10_alg».proof.Proof.Gen.KernelIdeal
import proofs.«147713_g2000705136397570_pallasbulk_321_10_alg».proof.Proof.Gen.KernelIdeal.Skeleton
import proofs.«147713_g2000705136397570_pallasbulk_321_10_alg».proof.Proof.Gen.KernelIdeal.Launch
import proofs.«147713_g2000705136397570_pallasbulk_321_10_alg».proof.Proof.Gen.KernelIdeal.Points
import proofs.«147713_g2000705136397570_pallasbulk_321_10_alg».proof.Proof.Gen.KernelIdeal.Frame
import proofs.«147713_g2000705136397570_pallasbulk_321_10_alg».proof.Proof.Gen.ReferenceIdeal
import proofs.«147713_g2000705136397570_pallasbulk_321_10_alg».proof.Proof.Gen.ReferenceIdeal.Skeleton
import proofs.«147713_g2000705136397570_pallasbulk_321_10_alg».proof.Proof.Gen.ReferenceIdeal.Launch
import proofs.«147713_g2000705136397570_pallasbulk_321_10_alg».proof.Proof.Gen.ReferenceIdeal.Points
import proofs.«147713_g2000705136397570_pallasbulk_321_10_alg».proof.Proof.Gen.ReferenceIdeal.Frame
import proofs.«147713_g2000705136397570_pallasbulk_321_10_alg».proof.Proof.Gen.Pre_finite_inputs
import Idealize.ShloMosaic.Adequacy
import Idealize.ShloMosaic.Init
import proofs.«147713_g2000705136397570_pallasbulk_321_10_alg».proof.Proof.KernelValue
import proofs.«147713_g2000705136397570_pallasbulk_321_10_alg».proof.Proof.ReferenceValue

noncomputable section

namespace Cert.Proof

open Idealize.ShloMosaic Idealize.SL.Sem

/-- From memories that agree on the argument, both idealized programs end with their result arrays at the
    specification's `G` of that argument. -/
theorem algebraic : Cert.algebraic_KernelIdeal_ReferenceIdeal := by
  intro m ρ m' ρ' _ hagree
  refine ⟨fun c => Cert.ImagePool.G (m ((c.tc : Thread Cert.KernelIdeal.nD Cert.KernelIdeal.τ).loc Cert.KernelIdeal.main_arg0)),
    Cert.KernelIdeal.Pool.run m ρ, ?_⟩
  refine (θ_run Cert.ReferenceIdeal.defs _ _).mono (fun r h c => ⟨(h c).1.trans ?_, (h c).2⟩)
    (Cert.ReferenceIdeal.Pool.run m' ρ')
  show Cert.ImagePool.G (m' ((c.tc : Thread Cert.ReferenceIdeal.nD Cert.ReferenceIdeal.τ).loc Cert.ReferenceIdeal.main_arg0))
    = Cert.ImagePool.G (m ((c.tc : Thread Cert.KernelIdeal.nD Cert.KernelIdeal.τ).loc Cert.KernelIdeal.main_arg0))
  rw [hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
